-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36_1)) (v1 : (c : Dev Cert.KernelIdeal.nD) → Buf (Elt Ideal) ((c.tc : Thread Cert.KernelIdeal.nD Cert.KernelIdeal.τ).loc Cert.KernelIdeal.main_v36_2)) (v2 : (c : Dev Cert.KernelIdeal.nD) → Buf (Elt Ideal) ((c.tc : Thread Cert.KernelIdeal.nD Cert.KernelIdeal.τ).loc Cert.KernelIdeal.main_v36_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_1) = v0 c
          ∧ r.2.mem ((c.tc : Thread Cert.KernelIdeal.nD Cert.KernelIdeal.τ).loc Cert.KernelIdeal.main_v36_2) = v1 c
          ∧ r.2.mem ((c.tc : Thread Cert.KernelIdeal.nD Cert.KernelIdeal.τ).loc Cert.KernelIdeal.main_v36_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S128x20 : Shape := ⟨2, ![128, 20]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S128x20 : S_.BroadcastsInDim S128x20 (![] : Fin 0 → Fin S128x20.rank)
  reducesTo_S128x20_S_d0_1 : S128x20.ReducesTo [0, 1] S_

variable [Facts]

def fn_part1 {F : FTy → Type} [FloatOps F] (main_arg5 : FVec F S128x10 .f32) (main_arg6 : FVec F S128x20 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x10 .f32 := Host.absf main_arg5
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S128x20 .f32 := Host.absf main_arg6
  let main_cst_8 : FVec F S_ .f32 := constant S_ .f32 0x7F800000#32
  let main_v25 : FVec F S128x20 .f32 := broadcastInDim S128x20 ![] bcast_S_S128x20 main_cst_8
  let main_v26 : IVec S128x20 1 := cmpf .olt main_v24 main_v25
  let main_c_9 : IVec S_ 1 := constantI S_ 1 1#1
  let main_v27 : IVec S_ 1 := (fun x v => Host.reduce IntOp.andi x v reducesTo_S128x20_S_d0_1 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x10 .f32) (main_arg6 : FVec F S128x20 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S128x20 : Shape := ⟨2, ![128, 20]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S10 : Shape := ⟨1, ![10]⟩
abbrev S1x10 : Shape := ⟨2, ![1, 10]⟩
abbrev S20 : Shape := ⟨1, ![20]⟩
abbrev S1x20 : Shape := ⟨2, ![1, 20]⟩
abbrev S1x128 : Shape := ⟨2, ![1, 128]⟩
abbrev S100000x10 : Shape := ⟨2, ![100000, 10]⟩
abbrev S100000x20 : Shape := ⟨2, ![100000, 20]⟩
abbrev S10000x128 : Shape := ⟨2, ![10000, 128]⟩
abbrev S10000x1 : Shape := ⟨2, ![10000, 1]⟩
abbrev S10000x10 : Shape := ⟨2, ![10000, 10]⟩
abbrev S10000x20 : Shape := ⟨2, ![10000, 20]⟩
abbrev S10000 : Shape := ⟨1, ![10000]⟩

abbrev nBuf : Space → Nat
  | .hbm => 55
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x10, .f32⟩
  | .hbm, ⟨6, _⟩ => ⟨S128x20, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S128x10, .f32⟩
  | .hbm, ⟨32, _⟩ => ⟨S_, .f32⟩
  | .hbm, ⟨33, _⟩ => ⟨S10, .f32⟩
  | .hbm, ⟨34, _⟩ => ⟨S1x10, .f32⟩
  | .hbm, ⟨35, _⟩ => ⟨S1x10, .f32⟩
  | .hbm, ⟨36, _⟩ => ⟨S_, .f32⟩
  | .hbm, ⟨37, _⟩ => ⟨S1x10, .f32⟩
  | .hbm, ⟨38, _⟩ => ⟨S1x10, .f32⟩
  | .hbm, ⟨39, _⟩ => ⟨S128x10, .f32⟩
  | .hbm, ⟨40, _⟩ => ⟨S128x10, .f32⟩
  | .hbm, ⟨41, _⟩ => ⟨S128x20, .f32⟩
  | .hbm, ⟨42, _⟩ => ⟨S_, .f32⟩
  | .hbm, ⟨43, _⟩ => ⟨S20, .f32⟩
  | .hbm, ⟨44, _⟩ => ⟨S1x20, .f32⟩
  | .hbm, ⟨45, _⟩ => ⟨S1x20, .f32⟩
  | .hbm, ⟨46, _⟩ => ⟨S_, .f32⟩
  | .hbm, ⟨47, _⟩ => ⟨S1x20, .f32⟩
  | .hbm, ⟨48, _⟩ => ⟨S1x20, .f32⟩
  | .hbm, ⟨49, _⟩ => ⟨S128x20, .f32⟩
  | .hbm, ⟨50, _⟩ => ⟨S128x20, .f32⟩
  | .hbm, ⟨51, _⟩ => ⟨S1x128, .f32⟩
  | .hbm, ⟨52, _⟩ => ⟨S100000x128, .f32⟩
  | .hbm, ⟨53, _⟩ => ⟨S100000x10, .f32⟩
  | .hbm, ⟨54, _⟩ => ⟨S100000x20, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x10, .f32⟩
  | .local _ .vmem, ⟨10, _⟩ => ⟨S128x20, .f32⟩
  | .local _ .vmem, ⟨11, _⟩ => ⟨S10000x128, .f32⟩
  | .local _ .vmem, ⟨12, _⟩ => ⟨S10000x128, .f32⟩
  | .local _ .vmem, ⟨13, _⟩ => ⟨S10000x10, .f32⟩
  | .local _ .vmem, ⟨14, _⟩ => ⟨S10000x10, .f32⟩
  | .local _ .vmem, ⟨15, _⟩ => ⟨S10000x20, .f32⟩
  | .local _ .vmem, ⟨16, _⟩ => ⟨S10000x20, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_v36_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S10000x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S10000x20 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  reducesTo_S128x10_S10_d0 : S128x10.ReducesTo [0] S10
  h_S_ : 0 < S_.numel
  bcast_S10_S1x10_1 : S10.BroadcastsInDim S1x10 (![1] : Fin 1 → Fin S1x10.rank)
  bcast_S_S1x10 : S_.BroadcastsInDim S1x10 (![] : Fin 0 → Fin S1x10.rank)
  bcast_S1x10_S128x10_0_1 : S1x10.BroadcastsInDim S128x10 (![0, 1] : Fin 2 → Fin S128x10.rank)
  reducesTo_S128x20_S20_d0 : S128x20.ReducesTo [0] S20
  bcast_S20_S1x20_1 : S20.BroadcastsInDim S1x20 (![1] : Fin 1 → Fin S1x20.rank)
  bcast_S_S1x20 : S_.BroadcastsInDim S1x20 (![] : Fin 0 → Fin S1x20.rank)
  bcast_S1x20_S128x20_0_1 : S1x20.BroadcastsInDim S128x20 (![0, 1] : Fin 2 → Fin S128x20.rank)
  shapeCasts_S128_S1x128 : S128.ShapeCasts S1x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S10000x10_S10000x10_0_0 : ∀ a, (![0, 0] : Fin 2 → Nat) a + S10000x10.size a ≤ S10000x10.size a
  h_S10000x10 : 0 < S10000x10.numel
  inb_S128x20_S128x20_0_0 : ∀ a, (![0, 0] : Fin 2 → Nat) a + S128x20.size a ≤ S128x20.size a
  h_S128x20 : 0 < S128x20.numel
  shapeCasts_S128x20_S128x20 : S128x20.ShapeCasts S128x20
  inb_S10000x20_S10000x20_0_0 : ∀ a, (![0, 0] : Fin 2 → Nat) a + S10000x20.size a ≤ S10000x20.size a
  h_S10000x20 : 0 < S10000x20.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  dot_S10000x128_S128x10_S10000x10_1_0_0_1_n_n_wf : DotDims.WF S10000x128 S128x10 S10000x10 [1] [0] [0] [1] [] []
  dot_S10000x128_S128x20_S10000x20_1_0_0_1_n_n_wf : DotDims.WF S10000x128 S128x20 S10000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x10.size a ≤ S128x10.size a
  hwx0_6 : ∀ i : grid0.Coords, EltTy.bits .f32 = 32 ∨ (Rect.block (s := S128x10) S128x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x20.size a ≤ S128x20.size a
  hwx0_7 : ∀ i : grid0.Coords, EltTy.bits .f32 = 32 ∨ (Rect.block (s := S128x20) S128x20.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S100000x128.size a
  hwx0_8 : ∀ i : grid0.Coords, EltTy.bits .f32 = 32 ∨ (Rect.block (s := S100000x128) S10000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x10.size a ≤ S100000x10.size a
  hwx0_9 : ∀ i : grid0.Coords, EltTy.bits .f32 = 32 ∨ (Rect.block (s := S100000x10) S10000x10.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x20.size a ≤ S100000x20.size a
  hwx0_10 : ∀ i : grid0.Coords, EltTy.bits .f32 = 32 ∨ (Rect.block (s := S100000x20) S10000x20.size (cc0_transform_10 i) (hinb0_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf
def dot_S10000x128_S128x20_S10000x20_1_0_0_1_n_n : DotDims S10000x128 S128x20 S10000x20 where
  lhsContracting := [1]
  rhsContracting := [0]
  lhsNonContracting := [0]
  rhsNonContracting := [1]
  lhsBatch := []
  rhsBatch := []
  wf := dot_S10000x128_S128x20_S10000x20_1_0_0_1_n_n_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S128x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S128x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36_0) S10000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v36_1) S10000x10.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v36_2) S10000x20.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S128x20 : Shape := ⟨2, ![128, 20]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S10 : Shape := ⟨1, ![10]⟩
abbrev S1x10 : Shape := ⟨2, ![1, 10]⟩
abbrev S100000x10 : Shape := ⟨2, ![100000, 10]⟩
abbrev S20 : Shape := ⟨1, ![20]⟩
abbrev S1x20 : Shape := ⟨2, ![1, 20]⟩
abbrev S100000x20 : Shape := ⟨2, ![100000, 20]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x10, .f32⟩
  | .hbm, ⟨6, _⟩ => ⟨S128x20, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S128x10, .f32⟩
  | .hbm, ⟨53, _⟩ => ⟨S_, .f32⟩
  | .hbm, ⟨54, _⟩ => ⟨S10, .f32⟩
  | .hbm, ⟨55, _⟩ => ⟨S1x10, .f32⟩
  | .hbm, ⟨56, _⟩ => ⟨S1x10, .f32⟩
  | .hbm, ⟨57, _⟩ => ⟨S_, .f32⟩
  | .hbm, ⟨58, _⟩ => ⟨S1x10, .f32⟩
  | .hbm, ⟨59, _⟩ => ⟨S1x10, .f32⟩
  | .hbm, ⟨60, _⟩ => ⟨S128x10, .f32⟩
  | .hbm, ⟨61, _⟩ => ⟨S128x10, .f32⟩
  | .hbm, ⟨62, _⟩ => ⟨S100000x10, .f32⟩
  | .hbm, ⟨63, _⟩ => ⟨S_, .f32⟩
  | .hbm, ⟨64, _⟩ => ⟨S100000x10, .f32⟩
  | .hbm, ⟨65, _⟩ => ⟨S100000x10, .f32⟩
  | .hbm, ⟨66, _⟩ => ⟨S128x20, .f32⟩
  | .hbm, ⟨67, _⟩ => ⟨S_, .f32⟩
  | .hbm, ⟨68, _⟩ => ⟨S20, .f32⟩
  | .hbm, ⟨69, _⟩ => ⟨S1x20, .f32⟩
  | .hbm, ⟨70, _⟩ => ⟨S1x20, .f32⟩
  | .hbm, ⟨71, _⟩ => ⟨S_, .f32⟩
  | .hbm, ⟨72, _⟩ => ⟨S1x20, .f32⟩
  | .hbm, ⟨73, _⟩ => ⟨S1x20, .f32⟩
  | .hbm, ⟨74, _⟩ => ⟨S128x20, .f32⟩
  | .hbm, ⟨75, _⟩ => ⟨S128x20, .f32⟩
  | .hbm, ⟨76, _⟩ => ⟨S100000x20, .f32⟩
  | .hbm, ⟨77, _⟩ => ⟨S_, .f32⟩
  | .hbm, ⟨78, _⟩ => ⟨S100000x20, .f32⟩
  | .hbm, ⟨79, _⟩ => ⟨S100000x20, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S128x10_S10_d0 : S128x10.ReducesTo [0] S10
  bcast_S10_S1x10_1 : S10.BroadcastsInDim S1x10 (![1] : Fin 1 → Fin S1x10.rank)
  bcast_S_S1x10 : S_.BroadcastsInDim S1x10 (![] : Fin 0 → Fin S1x10.rank)
  bcast_S1x10_S128x10_0_1 : S1x10.BroadcastsInDim S128x10 (![0, 1] : Fin 2 → Fin S128x10.rank)
  bcast_S_S100000x10 : S_.BroadcastsInDim S100000x10 (![] : Fin 0 → Fin S100000x10.rank)
  reducesTo_S128x20_S20_d0 : S128x20.ReducesTo [0] S20
  bcast_S20_S1x20_1 : S20.BroadcastsInDim S1x20 (![1] : Fin 1 → Fin S1x20.rank)
  bcast_S_S1x20 : S_.BroadcastsInDim S1x20 (![] : Fin 0 → Fin S1x20.rank)
  bcast_S1x20_S128x20_0_1 : S1x20.BroadcastsInDim S128x20 (![0, 1] : Fin 2 → Fin S128x20.rank)
  bcast_S_S100000x20 : S_.BroadcastsInDim S100000x20 (![] : Fin 0 → Fin S100000x20.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x10_S100000x10_1_0_0_1_n_n_wf : DotDims.WF S100000x128 S128x10 S100000x10 [1] [0] [0] [1] [] []
  dot_S100000x128_S128x20_S100000x20_1_0_0_1_n_n_wf : DotDims.WF S100000x128 S128x20 S100000x20 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def dot_S100000x128_S128x20_S100000x20_1_0_0_1_n_n : DotDims S100000x128 S128x20 S100000x20 where
  lhsContracting := [1]
  rhsContracting := [0]
  lhsNonContracting := [0]
  rhsNonContracting := [1]
  lhsBatch := []
  rhsBatch := []
  wf := dot_S100000x128_S128x20_S100000x20_1_0_0_1_n_n_wf

class Facts : Prop extends Facts₀ where

variable [Facts]
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«122241_j1176821039648_2_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.Head.lean ====
/-
  The dense head of a mean-aggregating graph layer, as functions of whole arrays over the extended reals.
  From the per-node neighbour sums AGG (M × 128), the in-degree column DEG (M × 1), the node features X (M × 128),
  two 128 × 128 weights, a bias of 128 entries and a 128 × N classifier matrix W:
    mean    = AGG / max(DEG, 1)                      (each row divided by its clamped degree)
    hidden  = (mean · WL + bias) + X · WR
    unit    = hidden / max(‖hidden row‖₂, ε)         (each row divided by its clamped Euclidean norm)
    scores  = 10 · (unit · W).
  Every step is row-local: row r of each result depends on row r of AGG, DEG and X only, which is why a kernel that
  works on blocks of rows computes the blocks of these same functions.
-/
import proofs.«122241_j1176821039648_2_alg».proof.Proof.LibTileMore

noncomputable section

namespace Cert.Sage

open Idealize.ShloMosaic Idealize.ShloMosaic.ValueIdx Cert.Tile

/-- An a × b array of extended reals. -/
abbrev Arr (a b : Nat) := (⟨2, ![a, b]⟩ : Shape).Idx → EReal

/-- A vector of C entries broadcasts along axis 1 to a 1 × C row. -/
theorem bidVecRow (C : Nat) : (⟨1, ![C]⟩ : Shape).BroadcastsInDim ⟨2, ![1, C]⟩ ![1] := by
  refine ⟨fun a b _ => Subsingleton.elim a b, fun a => ?_⟩
  match a with
  | ⟨0, _⟩ => exact Or.inr rfl

variable {M : Nat}

/-- The scalar of a 32-bit float pattern repeated over an M × C array. -/
def fill (C : Nat) (w : BitVec 32) : Arr M C :=
  broadcastInDim ⟨2, ![M, C]⟩ ![] (bidScalar M C) (constant (F := Ideal) ⟨0, ![]⟩ .f32 w)

/-- max(DEG, 1), as a column. -/
def degClamp (DEG : Arr M 1) : Arr M 1 := fun j => max (DEG j) (fill 1 0x3F800000#32 j)

/-- Each row of the neighbour sums divided by its clamped degree. -/
def meanAgg (AGG : Arr M 128) (DEG : Arr M 1) : Arr M 128 :=
  fun i => Ideal.div (AGG i) (broadcastInDim ⟨2, ![M, 128]⟩ ![0, 1] (bidCol M 128) (degClamp DEG) i)

/-- (mean · WL + bias) + X · WR. -/
def hidden (AGG : Arr M 128) (DEG : Arr M 1) (X : Arr M 128) (WL : Arr 128 128)
    (b : (⟨1, ![128]⟩ : Shape).Idx → EReal) (WR : Arr 128 128) : Arr M 128 :=
  fun i => (Ideal.matmul (DotDims.plain M 128 128) (meanAgg AGG DEG) WL (fun _ => 0) i
      + broadcastInDim ⟨2, ![M, 128]⟩ ![0, 1] (bidRow M 128) (broadcastInDim ⟨2, ![1, 128]⟩ ![1] (bidVecRow 128) b) i)
    + Ideal.matmul (DotDims.plain M 128 128) X WR (fun _ => 0) i

/-- max(√(Σ_l H(r,l)²), ε), as a column. -/
def rowNorm (H : Arr M 128) : Arr M 1 :=
  fun j => max (Ideal.sqrt (rowSum (fun k => H k * H k) j)) (fill 1 0x2B8CBCCC#32 j)

/-- Each row divided by its clamped norm. -/
def unit (H : Arr M 128) : Arr M 128 :=
  fun i => Ideal.div (H i) (broadcastInDim ⟨2, ![M, 128]⟩ ![0, 1] (bidCol M 128) (rowNorm H) i)

/-- 10 · (U · W). -/
def scores {N : Nat} (U : Arr M 128) (W : Arr 128 N) : Arr M N :=
  fun i => fill N 0x41200000#32 i * Ideal.matmul (DotDims.plain M 128 N) U W (fun _ => 0) i

end Cert.Sage

end
-- ==== Proof.TileBody.lean ====
/-
  The kernel body on a block of 10000 rows. If the three row-blocked inputs of a grid step are rows
  [r0, r0 + 10000) of the neighbour sums, of the degree column and of the node features, then what the body
  stores is rows [r0, r0 + 10000) of `hidden`, of `scores (unit hidden) W1` and of `scores (unit hidden) W2`:
  every operation of the body keeps the row-block relation (a product with a weight matrix, a row or a column
  repeated, a sum along each row kept as a column, pointwise operations), so their composition does.
-/
import proofs.«122241_j1176821039648_2_alg».proof.Proof.Gen.KernelIdeal.Skeleton
import proofs.«122241_j1176821039648_2_alg».proof.Proof.Head

noncomputable section

namespace Cert.Sage

open Idealize.ShloMosaic Idealize.ShloMosaic.ValueIdx Cert.Tile Cert.KernelIdeal Cert.KernelIdeal.Gen

variable {r0 : Nat} {hr : r0 + 10000 ≤ 100000}
variable {x0 : Arr 10000 128} {x1 : Arr 10000 1} {x2 : Arr 10000 128}
variable {AGG : Arr 100000 128} {DEG : Arr 100000 1} {X : Arr 100000 128}

/-- The stored hidden block is the row block of `hidden`. The bias reaches the body as the 1 × 128 view of its 128
    entries. -/
theorem hidden_tile (hx0 : IsTile r0 hr x0 AGG) (hx1 : IsTile r0 hr x1 DEG) (hx2 : IsTile r0 hr x2 X)
    (WL WR : Arr 128 128) (b : (⟨1, ![128]⟩ : Shape).Idx → EReal) (hb : (⟨1, ![128]⟩ : Shape).ShapeCasts ⟨2, ![1, 128]⟩) :
    IsTile r0 hr (k0_pay2 (F := Ideal) x1 x0 x2 WL (shapeCast ⟨2, ![1, 128]⟩ b hb) WR) (hidden AGG DEG X WL b WR) := by
  unfold k0_pay2
  simp only [shapeCast_self]
  exact vAdd (φ := .f32)
    (vAdd (φ := .f32)
      (vMatmul _ rfl none WL
        (vDiv (φ := .f32) hx0 (colRep _ (bidCol 100000 128) (vMax (φ := .f32) hx1 (vSplat 0x3F800000#32 (bidScalar 100000 1))))))
      (bias b hb _ (bidVecRow 128) (bidRow 100000 128)))
    (vMatmul _ rfl none WR hx2)

variable {h : Arr 10000 128} {H : Arr 100000 128}

/-- Dividing each row of a block by its clamped norm gives the row block of `unit`. -/
theorem unit_tile (hh : IsTile r0 hr h H) :
    IsTile r0 hr
      (divf (F := Ideal) (φ := .f32) h (broadcastTo S10000x128
        (maximumf (F := Ideal) (φ := .f32)
          (sqrt (F := Ideal) (φ := .f32) (shapeCast S10000x1
            (multiReduction (F := Ideal) (φ := .f32) .add [1] S10000 (mulf (F := Ideal) (φ := .f32) h h) 0x00000000#32
              reduces_S10000x128_S10000 (.inl rfl) rfl) shapeCasts_S10000_S10000x1))
          (broadcast S10000x1 (Scalar.ofBits (F := Ideal) .f32 0x2B8CBCCC#32)))
        broadcasts_S10000x1_S10000x128))
      (unit H) :=
  vDiv (φ := .f32) hh (colRep _ (bidCol 100000 128)
    (vMax (φ := .f32)
      (Tile.map Ideal.sqrt (laneSum 0x00000000#32 _ (.inl rfl) rfl _ (vMul (φ := .f32) hh hh)))
      (vSplat 0x2B8CBCCC#32 (bidScalar 100000 1))))

/-- The normalised block the body keeps for its two classifier products. -/
theorem pay3_tile (hx0 : IsTile r0 hr x0 AGG) (hx1 : IsTile r0 hr x1 DEG) (hx2 : IsTile r0 hr x2 X)
    (WL WR : Arr 128 128) (b : (⟨1, ![128]⟩ : Shape).Idx → EReal) (hb : (⟨1, ![128]⟩ : Shape).ShapeCasts ⟨2, ![1, 128]⟩) :
    IsTile r0 hr (k0_pay3 (F := Ideal) x1 x0 x2 WL (shapeCast ⟨2, ![1, 128]⟩ b hb) WR) (unit (hidden AGG DEG X WL b WR)) := by
  unfold k0_pay3
  exact unit_tile (hidden_tile hx0 hx1 hx2 WL WR b hb)

/-- The first classifier's stored block is the row block of its scores. -/
theorem scores1_tile (hx0 : IsTile r0 hr x0 AGG) (hx1 : IsTile r0 hr x1 DEG) (hx2 : IsTile r0 hr x2 X)
    (WL WR : Arr 128 128) (b : (⟨1, ![128]⟩ : Shape).Idx → EReal) (hb : (⟨1, ![128]⟩ : Shape).ShapeCasts ⟨2, ![1, 128]⟩)
    (W1 : Arr 128 10) :
    IsTile r0 hr (k0_pay4 (F := Ideal) x1 x0 x2 WL (shapeCast ⟨2, ![1, 128]⟩ b hb) WR W1)
      (scores (unit (hidden AGG DEG X WL b WR)) W1) := by
  unfold k0_pay4
  simp only [shapeCast_self]
  exact vMul (φ := .f32) (vSplat 0x41200000#32 (bidScalar 100000 10))
    (vMatmul _ rfl none W1 (pay3_tile hx0 hx1 hx2 WL WR b hb))

/-- The second classifier's stored block likewise, from the normalised block. -/
theorem scores2_tile {u : Arr 10000 128} {U : Arr 100000 128} (hu : IsTile r0 hr u U) (W2 : Arr 128 20) :
    IsTile r0 hr (k0_pay1 (F := Ideal) u W2) (scores U W2) := by
  unfold k0_pay1
  simp only [shapeCast_self]
  exact vMul (φ := .f32) (vSplat 0x41200000#32 (bidScalar 100000 20)) (vMatmul _ rfl none W2 hu)

end Cert.Sage

end
-- ==== Proof.Blocks.lean ====
/-
  From blocks to arrays. The grid has ten points; at point t the three row-blocked inputs hold rows
  [10000 t, 10000 t + 10000) of their arrays and the five resident inputs hold their whole arrays, so by the
  body's row-block lemmas what point t writes back is rows [10000 t, 10000 t + 10000) of `hidden`, of
  `scores (unit hidden) W1` and of `scores (unit hidden) W2` of the arrays the launch finds. Row r of an output is in
  the block of point r / 10000, so the ten blocks fill each output array, which therefore ends holding that function.
-/
import proofs.«122241_j1176821039648_2_alg».proof.Proof.Gen.KernelIdeal.Value
import proofs.«122241_j1176821039648_2_alg».proof.Proof.TileBody

noncomputable section

namespace Cert.Sage

open Idealize.ShloMosaic Idealize.ShloMosaic.TcCoe Idealize.SL.Sem Idealize.ShloMosaic.ValueIdx
open Idealize.ShloMosaic.Pipeline (Dat)
open Cert.Tile Cert.KernelIdeal Cert.KernelIdeal.Gen Cert.KernelIdeal.Value

theorem zero_offsets : (![0, 0] : Fin 2 → Nat) = fun _ => 0 := funext fun a => by fin_cases a <;> rfl

/-! ## The index maps over the ten grid points: a row-blocked window's block index is (t, 0), a resident one's (0, 0) -/

theorem idx_rows0 : ∀ t : Fin cfg0.N, win0_0.index t (0 : Fin 2) = t.val ∧ win0_0.index t (1 : Fin 2) = 0 :=
  (by decide +kernel : ∀ t : Fin grid0.N, _)

theorem idx_rows1 : ∀ t : Fin cfg0.N, win0_1.index t (0 : Fin 2) = t.val ∧ win0_1.index t (1 : Fin 2) = 0 :=
  (by decide +kernel : ∀ t : Fin grid0.N, _)

theorem idx_rows2 : ∀ t : Fin cfg0.N, win0_2.index t (0 : Fin 2) = t.val ∧ win0_2.index t (1 : Fin 2) = 0 :=
  (by decide +kernel : ∀ t : Fin grid0.N, _)

theorem idx_rows8 : ∀ t : Fin cfg0.N, win0_8.index t (0 : Fin 2) = t.val ∧ win0_8.index t (1 : Fin 2) = 0 :=
  (by decide +kernel : ∀ t : Fin grid0.N, _)

theorem idx_rows9 : ∀ t : Fin cfg0.N, win0_9.index t (0 : Fin 2) = t.val ∧ win0_9.index t (1 : Fin 2) = 0 :=
  (by decide +kernel : ∀ t : Fin grid0.N, _)

theorem idx_rows10 : ∀ t : Fin cfg0.N, win0_10.index t (0 : Fin 2) = t.val ∧ win0_10.index t (1 : Fin 2) = 0 :=
  (by decide +kernel : ∀ t : Fin grid0.N, _)

theorem idx_res3 : ∀ t : Fin cfg0.N, win0_3.index t (0 : Fin 2) = 0 ∧ win0_3.index t (1 : Fin 2) = 0 :=
  (by decide +kernel : ∀ t : Fin grid0.N, _)

theorem idx_res4 : ∀ t : Fin cfg0.N, win0_4.index t (0 : Fin 2) = 0 ∧ win0_4.index t (1 : Fin 2) = 0 :=
  (by decide +kernel : ∀ t : Fin grid0.N, _)

theorem idx_res5 : ∀ t : Fin cfg0.N, win0_5.index t (0 : Fin 2) = 0 ∧ win0_5.index t (1 : Fin 2) = 0 :=
  (by decide +kernel : ∀ t : Fin grid0.N, _)

theorem idx_res6 : ∀ t : Fin cfg0.N, win0_6.index t (0 : Fin 2) = 0 ∧ win0_6.index t (1 : Fin 2) = 0 :=
  (by decide +kernel : ∀ t : Fin grid0.N, _)

theorem idx_res7 : ∀ t : Fin cfg0.N, win0_7.index t (0 : Fin 2) = 0 ∧ win0_7.index t (1 : Fin 2) = 0 :=
  (by decide +kernel : ∀ t : Fin grid0.N, _)

theorem rows_le (t : Fin cfg0.N) : 10000 * t.val + 10000 ≤ 100000 := by
  have h : t.val < 10 := lt_of_lt_of_eq t.isLt N_0
  omega

/-- Two blocks that are the same rows of one array are equal. -/
theorem tile_unique {T M C r0 : Nat} {hr : r0 + T ≤ M} {x y : Arr T C} {G : Arr M C}
    (hx : IsTile r0 hr x G) (hy : IsTile r0 hr y G) : x = y :=
  funext fun j => ((congrArg x (eq_ix2 j)).trans (hx (j 0) (j 1))).trans
    ((congrArg y (eq_ix2 j)).trans (hy (j 0) (j 1))).symm

/-! ## A row-blocked window's block at point t is rows [10000 t, 10000 t + 10000) of its array -/

theorem blk0_tile (t : Fin cfg0.N) (A : Arr 100000 128) :
    IsTile (10000 * t.val) (rows_le t) (((cfg0.win 0).blk t).view.read (Elt Ideal) A : Arr 10000 128) A := by
  intro p l
  obtain ⟨e0, e1⟩ := idx_rows0 t
  rw [View.read_apply]
  show A _ = A _
  refine congrArg A (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 128 + 1 * l.val = l.val; rw [e1]; omega

theorem blk1_tile (t : Fin cfg0.N) (A : Arr 100000 1) :
    IsTile (10000 * t.val) (rows_le t) (((cfg0.win 1).blk t).view.read (Elt Ideal) A : Arr 10000 1) A := by
  intro p l
  obtain ⟨e0, e1⟩ := idx_rows1 t
  rw [View.read_apply]
  show A _ = A _
  refine congrArg A (funext fun a => Fin.ext ?_)
  match a with
  | ⟨0, _⟩ => show win0_1.index t (0 : Fin 2) * 10000 + 1 * p.val = 10000 * t.val + p.val; rw [e0]; omega
  | ⟨1, _⟩ => show win0_1.index t (1 : Fin 2) * 1 + 1 * l.val = l.val; rw [e1]; omega

theorem blk2_tile (t : Fin cfg0.N) (A : Arr 100000 128) :
    IsTile (10000 * t.val) (rows_le t) (((cfg0.win 2).blk t).view.read (Elt Ideal) A : Arr 10000 128) A := by
  intro p l
  obtain ⟨e0, e1⟩ := idx_rows2 t
  rw [View.read_apply]
  show A _ = A _
  refine congrArg A (funext fun a => Fin.ext ?_)
  match a with
  | ⟨0, _⟩ => show win0_2.index t (0 : Fin 2) * 10000 + 1 * p.val = 10000 * t.val + p.val; rw [e0]; omega
  | ⟨1, _⟩ => show win0_2.index t (1 : Fin 2) * 128 + 1 * l.val = l.val; rw [e1]; omega

theorem blk8_tile (t : Fin cfg0.N) (A : Arr 100000 128) :
    IsTile (10000 * t.val) (rows_le t) (((cfg0.win 8).blk t).view.read (Elt Ideal) A : Arr 10000 128) A := by
  intro p l
  obtain ⟨e0, e1⟩ := idx_rows8 t
  rw [View.read_apply]
  show A _ = A _
  refine congrArg A (funext fun a => Fin.ext ?_)
  match a with
  | ⟨0, _⟩ => show win0_8.index t (0 : Fin 2) * 10000 + 1 * p.val = 10000 * t.val + p.val; rw [e0]; omega
  | ⟨1, _⟩ => show win0_8.index t (1 : Fin 2) * 128 + 1 * l.val = l.val; rw [e1]; omega

theorem blk9_tile (t : Fin cfg0.N) (A : Arr 100000 10) :
    IsTile (10000 * t.val) (rows_le t) (((cfg0.win 9).blk t).view.read (Elt Ideal) A : Arr 10000 10) A := by
  intro p l
  obtain ⟨e0, e1⟩ := idx_rows9 t
  rw [View.read_apply]
  show A _ = A _
  refine congrArg A (funext fun a => Fin.ext ?_)
  match a with
  | ⟨0, _⟩ => show win0_9.index t (0 : Fin 2) * 10000 + 1 * p.val = 10000 * t.val + p.val; rw [e0]; omega
  | ⟨1, _⟩ => show win0_9.index t (1 : Fin 2) * 10 + 1 * l.val = l.val; rw [e1]; omega

theorem blk10_tile (t : Fin cfg0.N) (A : Arr 100000 20) :
    IsTile (10000 * t.val) (rows_le t) (((cfg0.win 10).blk t).view.read (Elt Ideal) A : Arr 10000 20) A := by
  intro p l
  obtain ⟨e0, e1⟩ := idx_rows10 t
  rw [View.read_apply]
  show A _ = A _
  refine congrArg A (funext fun a => Fin.ext ?_)
  match a with
  | ⟨0, _⟩ => show win0_10.index t (0 : Fin 2) * 10000 + 1 * p.val = 10000 * t.val + p.val; rw [e0]; omega
  | ⟨1, _⟩ => show win0_10.index t (1 : Fin 2) * 20 + 1 * l.val = l.val; rw [e1]; omega

/-! ## A resident window's block is its whole array -/

theorem blk3_whole (t : Fin cfg0.N) (A : Arr 128 128) :
    (((cfg0.win 3).blk t).view.read (Elt Ideal) A : Arr 128 128) = A := by
  obtain ⟨e0, e1⟩ := idx_res3 t
  funext j
  rw [View.read_apply]
  show A _ = A j
  refine congrArg A (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem blk4_whole (t : Fin cfg0.N) (A : Arr 1 128) :
    (((cfg0.win 4).blk t).view.read (Elt Ideal) A : Arr 1 128) = A := by
  obtain ⟨e0, e1⟩ := idx_res4 t
  funext j
  rw [View.read_apply]
  show A _ = A j
  refine congrArg A (funext fun a => Fin.ext ?_)
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

theorem blk5_whole (t : Fin cfg0.N) (A : Arr 128 128) :
    (((cfg0.win 5).blk t).view.read (Elt Ideal) A : Arr 128 128) = A := by
  obtain ⟨e0, e1⟩ := idx_res5 t
  funext j
  rw [View.read_apply]
  show A _ = A j
  refine congrArg A (funext fun a => Fin.ext ?_)
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

theorem blk6_whole (t : Fin cfg0.N) (A : Arr 128 10) :
    (((cfg0.win 6).blk t).view.read (Elt Ideal) A : Arr 128 10) = A := by
  obtain ⟨e0, e1⟩ := idx_res6 t
  funext j
  rw [View.read_apply]
  show A _ = A j
  refine congrArg A (funext fun a => Fin.ext ?_)
  match a with
  | ⟨0, _⟩ => show win0_6.index t (0 : Fin 2) * 128 + 1 * (j 0).val = (j 0).val; rw [e0]; omega
  | ⟨1, _⟩ => show win0_6.index t (1 : Fin 2) * 10 + 1 * (j 1).val = (j 1).val; rw [e1]; omega

theorem blk7_whole (t : Fin cfg0.N) (A : Arr 128 20) :
    (((cfg0.win 7).blk t).view.read (Elt Ideal) A : Arr 128 20) = A := by
  obtain ⟨e0, e1⟩ := idx_res7 t
  funext j
  rw [View.read_apply]
  show A _ = A j
  refine congrArg A (funext fun a => Fin.ext ?_)
  match a with
  | ⟨0, _⟩ => show win0_7.index t (0 : Fin 2) * 128 + 1 * (j 0).val = (j 0).val; rw [e0]; omega
  | ⟨1, _⟩ => show win0_7.index t (1 : Fin 2) * 20 + 1 * (j 1).val = (j 1).val; rw [e1]; omega

/-! ## The ten blocks of an output fill it -/

/-- Every row of the array is in the block of the point that holds it: row r is in block r / 10000. -/
theorem cover8 (i : (⟨2, ![100000, 128]⟩ : Shape).Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 10 := N_0
  have hlt : (i 0).val / 10000 < cfg0.N := by rw [hN]; omega
  obtain ⟨e0, e1⟩ := idx_rows8 ⟨(i 0).val / 10000, hlt⟩
  refine ⟨⟨(i 0).val / 10000, hlt⟩, flush0_8 _, ?_⟩
  show i ∈ ((View.whole main_v36_0).slice (win0_8.rect ⟨(i 0).val / 10000, hlt⟩)).set
  rw [View.set_slice_whole, Rect.mem_set_unit]
  intro a
  match a with
  | ⟨0, _⟩ =>
    show win0_8.index ⟨(i 0).val / 10000, hlt⟩ (0 : Fin 2) * 10000 ≤ (i 0).val
      ∧ (i 0).val < win0_8.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_8.index ⟨(i 0).val / 10000, hlt⟩ (1 : Fin 2) * 128 ≤ (i 1).val
      ∧ (i 1).val < win0_8.index ⟨(i 0).val / 10000, hlt⟩ (1 : Fin 2) * 128 + 128
    rw [e1]; omega

/-- Every row of the array is in the block of the point that holds it: row r is in block r / 10000. -/
theorem cover9 (i : (⟨2, ![100000, 10]⟩ : Shape).Idx) :
    ∃ t : Fin cfg0.N, (cfg0.win 9).flush t = true ∧ i ∈ ((cfg0.win 9).blk t).view.set := by
  have hi0 : (i 0).val < 100000 := (i 0).isLt
  have hi1 : (i 1).val < 10 := (i 1).isLt
  have hN : cfg0.N = 10 := N_0
  have hlt : (i 0).val / 10000 < cfg0.N := by rw [hN]; omega
  obtain ⟨e0, e1⟩ := idx_rows9 ⟨(i 0).val / 10000, hlt⟩
  refine ⟨⟨(i 0).val / 10000, hlt⟩, flush0_9 _, ?_⟩
  show i ∈ ((View.whole main_v36_1).slice (win0_9.rect ⟨(i 0).val / 10000, hlt⟩)).set
  rw [View.set_slice_whole, Rect.mem_set_unit]
  intro a
  match a with
  | ⟨0, _⟩ =>
    show win0_9.index ⟨(i 0).val / 10000, hlt⟩ (0 : Fin 2) * 10000 ≤ (i 0).val
      ∧ (i 0).val < win0_9.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_9.index ⟨(i 0).val / 10000, hlt⟩ (1 : Fin 2) * 10 ≤ (i 1).val
      ∧ (i 1).val < win0_9.index ⟨(i 0).val / 10000, hlt⟩ (1 : Fin 2) * 10 + 10
    rw [e1]; omega

/-- Every row of the array is in the block of the point that holds it: row r is in block r / 10000. -/
theorem cover10 (i : (⟨2, ![100000, 20]⟩ : Shape).Idx) :
    ∃ t : Fin cfg0.N, (cfg0.win 10).flush t = true ∧ i ∈ ((cfg0.win 10).blk t).view.set := by
  have hi0 : (i 0).val < 100000 := (i 0).isLt
  have hi1 : (i 1).val < 20 := (i 1).isLt
  have hN : cfg0.N = 10 := N_0
  have hlt : (i 0).val / 10000 < cfg0.N := by rw [hN]; omega
  obtain ⟨e0, e1⟩ := idx_rows10 ⟨(i 0).val / 10000, hlt⟩
  refine ⟨⟨(i 0).val / 10000, hlt⟩, flush0_10 _, ?_⟩
  show i ∈ ((View.whole main_v36_2).slice (win0_10.rect ⟨(i 0).val / 10000, hlt⟩)).set
  rw [View.set_slice_whole, Rect.mem_set_unit]
  intro a
  match a with
  | ⟨0, _⟩ =>
    show win0_10.index ⟨(i 0).val / 10000, hlt⟩ (0 : Fin 2) * 10000 ≤ (i 0).val
      ∧ (i 0).val < win0_10.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_10.index ⟨(i 0).val / 10000, hlt⟩ (1 : Fin 2) * 20 ≤ (i 1).val
      ∧ (i 1).val < win0_10.index ⟨(i 0).val / 10000, hlt⟩ (1 : Fin 2) * 20 + 20
    rw [e1]; omega

end Cert.Sage

end
-- ==== Proof.Arrays.lean ====
/-
  What each grid point writes back, and the output arrays after the run. At point t the body's stores are the
  body's functions of the blocks its windows hold; the row-blocked windows hold rows [10000 t, 10000 t + 10000) of their
  arrays and the resident ones their whole arrays, so (by the body's row-block lemmas) what is written back is the
  block at t of `hidden`, of `scores (unit hidden) W1` and of `scores (unit hidden) W2` of the arrays the launch finds.
  The ten blocks fill each output, so each output array ends holding that function.
-/
import proofs.«122241_j1176821039648_2_alg».proof.Proof.Blocks

noncomputable section

namespace Cert.Sage

open Idealize.ShloMosaic Idealize.ShloMosaic.TcCoe Idealize.SL.Sem Idealize.ShloMosaic.ValueIdx
open Idealize.ShloMosaic.Pipeline (Dat)
open Cert.Tile Cert.KernelIdeal Cert.KernelIdeal.Gen Cert.KernelIdeal.Value

/-! ## The body's stores over blocks of arbitrary arrays -/

section
variable (t : Fin cfg0.N) (A0 : Arr 100000 128) (A1 : Arr 100000 1) (A2 : Arr 100000 128) (WL : Arr 128 128)
  (B4 : Arr 1 128) (WR : Arr 128 128) (W1 : Arr 128 10) (W2 : Arr 128 20)
  (b : (⟨1, ![128]⟩ : Shape).Idx → EReal) (hB : B4 = shapeCast S1x128 b shapeCasts_S128_S1x128)
include hB

/-- The stored hidden block at point t is block t of `hidden`. -/
theorem hidden_block (x6 : Vec Ideal S128x10 .f32) (x7 : Vec Ideal S128x20 .f32) :
    (out0_8 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) WL) (((cfg0.win 4).blk t).view.read (Elt Ideal) B4) (((cfg0.win 5).blk t).view.read (Elt Ideal) WR) x6 x7 : Arr 10000 128)
      = ((cfg0.win 8).blk t).view.read (Elt Ideal) (hidden A0 A1 A2 WL b WR) := by
  subst hB
  unfold out0_8
  rw [View.canon_unit_zero zero_offsets]
  simp only [View.ld_unit_zero (S := S10000x1) zero_offsets, View.ld_unit_zero (S := S10000x128) zero_offsets,
    View.ld_unit_zero (S := S128x128) zero_offsets, View.ld_unit_zero (S := S1x128) zero_offsets]
  have e3 := blk3_whole t WL
  have e4 := blk4_whole t (shapeCast S1x128 b shapeCasts_S128_S1x128)
  have e5 := blk5_whole t WR
  rw [e3, e4, e5]
  exact tile_unique (hidden_tile (blk0_tile t A0) (blk1_tile t A1) (blk2_tile t A2) WL WR b _) (blk8_tile t _)

/-- The first classifier's stored block at point t is block t of its scores. -/
theorem scores1_block (x7 : Vec Ideal S128x20 .f32) :
    (out0_9 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) WL) (((cfg0.win 4).blk t).view.read (Elt Ideal) B4) (((cfg0.win 5).blk t).view.read (Elt Ideal) WR) (((cfg0.win 6).blk t).view.read (Elt Ideal) W1) x7 : Arr 10000 10)
      = ((cfg0.win 9).blk t).view.read (Elt Ideal) (scores (unit (hidden A0 A1 A2 WL b WR)) W1) := by
  subst hB
  unfold out0_9
  rw [View.canon_unit_zero zero_offsets]
  simp only [View.ld_unit_zero (S := S10000x1) zero_offsets, View.ld_unit_zero (S := S10000x128) zero_offsets,
    View.ld_unit_zero (S := S128x128) zero_offsets, View.ld_unit_zero (S := S1x128) zero_offsets,
    View.ld_unit_zero (S := S128x10) zero_offsets]
  have e3 := blk3_whole t WL
  have e4 := blk4_whole t (shapeCast S1x128 b shapeCasts_S128_S1x128)
  have e5 := blk5_whole t WR
  have e6 := blk6_whole t W1
  rw [e3, e4, e5, e6]
  exact tile_unique (scores1_tile (blk0_tile t A0) (blk1_tile t A1) (blk2_tile t A2) WL WR b _ W1) (blk9_tile t _)

/-- The second classifier's stored block at point t is block t of its scores. -/
theorem scores2_block (x6 : Vec Ideal S128x10 .f32) :
    (out0_10 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) WL) (((cfg0.win 4).blk t).view.read (Elt Ideal) B4) (((cfg0.win 5).blk t).view.read (Elt Ideal) WR) x6 (((cfg0.win 7).blk t).view.read (Elt Ideal) W2) : Arr 10000 20)
      = ((cfg0.win 10).blk t).view.read (Elt Ideal) (scores (unit (hidden A0 A1 A2 WL b WR)) W2) := by
  subst hB
  unfold out0_10
  rw [View.canon_unit_zero zero_offsets]
  simp only [View.ld_unit_zero (S := S10000x1) zero_offsets, View.ld_unit_zero (S := S10000x128) zero_offsets,
    View.ld_unit_zero (S := S128x128) zero_offsets, View.ld_unit_zero (S := S1x128) zero_offsets,
    View.ld_unit_zero (S := S128x20) zero_offsets]
  have e3 := blk3_whole t WL
  have e4 := blk4_whole t (shapeCast S1x128 b shapeCasts_S128_S1x128)
  have e5 := blk5_whole t WR
  have e7 := blk7_whole t W2
  rw [e3, e4, e5, e7]
  exact tile_unique
    (scores2_tile (pay3_tile (blk0_tile t A0) (blk1_tile t A1) (blk2_tile t A2) WL WR b _) W2) (blk10_tile t _)

end

/-! ## At the arrays the launch finds -/

variable (m : (ℓ : Loc nD τ sig) → Buf (Elt Ideal) ℓ) (ρ : Dev nD → PrngReg)

/-- `hidden` of the arrays the launch finds; the bias as its 128 entries `b`. -/
def hiddenV (c : Dev nD) (b : (⟨1, ![128]⟩ : Shape).Idx → EReal) : Arr 100000 128 :=
  hidden (V m c main_v13) (V m c main_v18) (V m c main_arg0) (V m c main_arg2) b (V m c main_arg4)

section
variable (c : Dev nD) (b : (⟨1, ![128]⟩ : Shape).Idx → EReal)
  (hb : V m c main_v35 = shapeCast S1x128 b shapeCasts_S128_S1x128)
include hb

theorem flushed8_eq (t : Fin cfg0.N) :
    (dats m 0 c).flushed 8 t = ((cfg0.win 8).blk t).view.read (Elt Ideal) (hiddenV m c b) :=
  (flushed8 m c t).trans
    (hidden_block t (V m c main_v13) (V m c main_v18) (V m c main_arg0) (V m c main_arg2) (V m c main_v35)
      (V m c main_arg4) b hb (iblk m c 6 t) (iblk m c 7 t))

theorem flushed9_eq (t : Fin cfg0.N) :
    (dats m 0 c).flushed 9 t
      = ((cfg0.win 9).blk t).view.read (Elt Ideal) (scores (unit (hiddenV m c b)) (V m c main_v26)) :=
  (flushed9 m c t).trans
    (scores1_block t (V m c main_v13) (V m c main_v18) (V m c main_arg0) (V m c main_arg2) (V m c main_v35)
      (V m c main_arg4) (V m c main_v26) b hb (iblk m c 7 t))

theorem flushed10_eq (t : Fin cfg0.N) :
    (dats m 0 c).flushed 10 t
      = ((cfg0.win 10).blk t).view.read (Elt Ideal) (scores (unit (hiddenV m c b)) (V m c main_v34)) :=
  (flushed10 m c t).trans
    (scores2_block t (V m c main_v13) (V m c main_v18) (V m c main_arg0) (V m c main_arg2) (V m c main_v35)
      (V m c main_arg4) (V m c main_v34) b hb (iblk m c 6 t))

/-- The hidden array after the run. -/
theorem final8 : (dats m 0 c).arrAt 8 cfg0.N = hiddenV m c b :=
  (dats m 0 c).arrAt_eq_of_cover 8 (hiddenV m c b) (fun t _ => flushed8_eq m c b hb t) cover8

/-- The first classifier's scores after the run. -/
theorem final9 : (dats m 0 c).arrAt 9 cfg0.N = scores (unit (hiddenV m c b)) (V m c main_v26) :=
  (dats m 0 c).arrAt_eq_of_cover 9 _ (fun t _ => flushed9_eq m c b hb t) cover9

/-- The second classifier's scores after the run. -/
theorem final10 : (dats m 0 c).arrAt 10 cfg0.N = scores (unit (hiddenV m c b)) (V m c main_v34) :=
  (dats m 0 c).arrAt_eq_of_cover 10 _ (fun t _ => flushed10_eq m c b hb t) cover10

end

/-- The three output arrays after the run, with the arrays the launch finds given as functions of the arguments. -/
theorem arrays_after (c : Dev nD) (A0 : Arr 100000 128) (A1 : Arr 100000 1) (A2 : Arr 100000 128) (WL WR : Arr 128 128)
    (W1 : Arr 128 10) (W2 : Arr 128 20) (b : (⟨1, ![128]⟩ : Shape).Idx → EReal)
    (h0 : (V m c main_v13 : Arr 100000 128) = A0) (h1 : (V m c main_v18 : Arr 100000 1) = A1)
    (h2 : (V m c main_arg0 : Arr 100000 128) = A2) (h3 : (V m c main_arg2 : Arr 128 128) = WL)
    (hb : V m c main_v35 = shapeCast S1x128 b shapeCasts_S128_S1x128) (h5 : (V m c main_arg4 : Arr 128 128) = WR)
    (h6 : (V m c main_v26 : Arr 128 10) = W1) (h7 : (V m c main_v34 : Arr 128 20) = W2) :
    (dats m 0 c).arrAt 8 cfg0.N = hidden A0 A1 A2 WL b WR
    ∧ (dats m 0 c).arrAt 9 cfg0.N = scores (unit (hidden A0 A1 A2 WL b WR)) W1
    ∧ (dats m 0 c).arrAt 10 cfg0.N = scores (unit (hidden A0 A1 A2 WL b WR)) W2 := by
  subst h0 h1 h2 h3 h5 h6 h7
  exact ⟨final8 m c b hb, final9 m c b hb, final10 m c b hb⟩

end Cert.Sage

end
-- ==== Proof.KernelHost.lean ====
/-
  What the launch finds in the arrays the host computes before it, as functions of the argument arrays:
  the per-node neighbour sums (features gathered at each edge's source — a negative index wrapped by the node
  count — and added into the edge's target row), the in-degree of each node (ones added the same way) as a column,
  each classifier matrix with its columns divided by their clamped norms, and the bias viewed as a 1 × 128 row.
-/
import proofs.«122241_j1176821039648_2_alg».proof.Proof.Gen.KernelIdeal.Frame
import Idealize.ShloMosaic.PureOps.Ideal

noncomputable section

namespace Cert.Sage.Launch

open Idealize.ShloMosaic Idealize.ShloMosaic.TcCoe Idealize.SL.Sem Idealize.ShloMosaic.StableHlo
open Cert.KernelIdeal Cert.KernelIdeal.Gen

/-- The edge list: row 0 the sources, row 1 the targets. -/
abbrev Edges := (⟨S2x1600000, .i32⟩ : BufTy).Contents (Elt Ideal)

/-- Row r of the edge list. -/
def srcRow (e : Edges) : (⟨S1600000, .i32⟩ : BufTy).Contents (Elt Ideal) :=
  shapeCast S1600000 (extractStridedSlice S1x1600000 ![0, 0] e slices_S2x1600000_S1x1600000_0_0) shapeCasts_S1x1600000_S1600000

def dstRow (e : Edges) : (⟨S1600000, .i32⟩ : BufTy).Contents (Elt Ideal) :=
  shapeCast S1600000 (extractStridedSlice S1x1600000 ![1, 0] e slices_S2x1600000_S1x1600000_1_0) shapeCasts_S1x1600000_S1600000

/-- The targets as a column of scatter indices. -/
def dstIdx (e : Edges) : (⟨S1600000x1, .i32⟩ : BufTy).Contents (Elt Ideal) :=
  broadcastInDim S1600000x1 ![0] bcast_S1600000_S1600000x1_0 (dstRow e)

/-- The sources, a negative one wrapped by the node count, as a column of gather indices. -/
def srcIdx (e : Edges) : (⟨S1600000x1, .i32⟩ : BufTy).Contents (Elt Ideal) :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32)))
      (srcRow e))

/-- The per-node sums of the neighbours' features. -/
def nbrSum (x : S100000x128.Idx → EReal) (e : Edges) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (dstIdx e)
    (Host.gather gather_S100000x128_S1600000x1_S1600000x128_1_0_n_n_0_1_1128 x (srcIdx e))

/-- The per-node in-degrees. -/
def degree (e : Edges) : S100000.Idx → EReal :=
  Host.scatterAdd (F := Ideal) (φ := .f32) scatter_S100000_S1600000x1_S1600000_n_0_0_1
    (broadcastInDim S100000 ![] bcast_S_S100000 (constant (F := Ideal) S_ .f32 0x00000000#32))
    (dstIdx e)
    (broadcastInDim S1600000 ![] bcast_S_S1600000 (constant (F := Ideal) S_ .f32 0x3F800000#32))

/-- The ten-column classifier matrix, each column divided by its clamped norm. -/
def colUnit10 (w : S128x10.Idx → EReal) : S128x10.Idx → EReal :=
  Host.divf (F := Ideal) (φ := .f32) w
    (broadcastInDim S128x10 ![0, 1] bcast_S1x10_S128x10_0_1
      (maximumf (F := Ideal) (φ := .f32)
        (Host.sqrt (F := Ideal) (φ := .f32)
          (broadcastInDim S1x10 ![1] bcast_S10_S1x10_1
            (Host.reduceAdd (F := Ideal) (φ := .f32) (mulf (F := Ideal) (φ := .f32) w w)
              (constant (F := Ideal) S_ .f32 0x00000000#32) reducesTo_S128x10_S10_d0 h_S_)))
        (broadcastInDim S1x10 ![] bcast_S_S1x10 (constant (F := Ideal) S_ .f32 0x2B8CBCCC#32))))

/-- The twenty-column classifier matrix likewise. -/
def colUnit20 (w : S128x20.Idx → EReal) : S128x20.Idx → EReal :=
  Host.divf (F := Ideal) (φ := .f32) w
    (broadcastInDim S128x20 ![0, 1] bcast_S1x20_S128x20_0_1
      (maximumf (F := Ideal) (φ := .f32)
        (Host.sqrt (F := Ideal) (φ := .f32)
          (broadcastInDim S1x20 ![1] bcast_S20_S1x20_1
            (Host.reduceAdd (F := Ideal) (φ := .f32) (mulf (F := Ideal) (φ := .f32) w w)
              (constant (F := Ideal) S_ .f32 0x00000000#32) reducesTo_S128x20_S20_d0 h_S_)))
        (broadcastInDim S1x20 ![] bcast_S_S1x20 (constant (F := Ideal) S_ .f32 0x2B8CBCCC#32))))

variable (m : (ℓ : Loc nD τ sig) → Buf (Elt Ideal) ℓ) (c : Dev nD)

set_option maxHeartbeats 4000000 in
theorem found_nbrSum :
    (V m c main_v13 : S100000x128.Idx → EReal)
      = nbrSum (m ((c : Thread nD τ).loc main_arg0)) (m ((c : Thread nD τ).loc main_arg1)) := by
  dsimp only [Gen.V, Gen.hostOps0]
  after_results_simp
  rfl

set_option maxHeartbeats 4000000 in
theorem found_degree :
    (V m c main_v18 : S100000x1.Idx → EReal)
      = broadcastInDim S100000x1 ![0] bcast_S100000_S100000x1_0 (degree (m ((c : Thread nD τ).loc main_arg1))) := by
  dsimp only [Gen.V, Gen.hostOps0]
  after_results_simp
  rfl

set_option maxHeartbeats 4000000 in
theorem found_colUnit10 :
    (V m c main_v26 : S128x10.Idx → EReal) = colUnit10 (m ((c : Thread nD τ).loc main_arg5)) := by
  dsimp only [Gen.V, Gen.hostOps0]
  after_results_simp
  rfl

set_option maxHeartbeats 4000000 in
theorem found_colUnit20 :
    (V m c main_v34 : S128x20.Idx → EReal) = colUnit20 (m ((c : Thread nD τ).loc main_arg6)) := by
  dsimp only [Gen.V, Gen.hostOps0]
  after_results_simp
  rfl

set_option maxHeartbeats 4000000 in
theorem found_bias :
    (V m c main_v35 : S1x128.Idx → EReal)
      = shapeCast S1x128 (m ((c : Thread nD τ).loc main_arg3) : S128.Idx → EReal) shapeCasts_S128_S1x128 := by
  dsimp only [Gen.V, Gen.hostOps0]
  after_results_simp
  rfl

end Cert.Sage.Launch

end
-- ==== Proof.KernelRun.lean ====
/-
  The kernel's run, read: every weakly fair execution of the idealized kernel program ends with its three result
  arrays at the head's functions of the argument arrays — the hidden array, and the two classifiers' scores of its
  row-normalised form against the column-normalised classifier matrices — and with the arguments unchanged.
-/
import proofs.«122241_j1176821039648_2_alg».proof.Proof.Arrays
import proofs.«122241_j1176821039648_2_alg».proof.Proof.KernelHost

noncomputable section

namespace Cert.Sage

open Idealize.ShloMosaic Idealize.ShloMosaic.TcCoe Idealize.SL.Sem
open Cert.KernelIdeal Cert.KernelIdeal.Gen Cert.KernelIdeal.Value Cert.Sage.Launch

variable (m : (ℓ : Loc nD τ sig) → Buf (Elt Ideal) ℓ) (ρ : Dev nD → PrngReg)

/-- The hidden array as a function of the argument arrays. -/
def headHidden (c : Dev nD) : Arr 100000 128 :=
  hidden (nbrSum (m ((c : Thread nD τ).loc main_arg0)) (m ((c : Thread nD τ).loc main_arg1)))
    (broadcastInDim S100000x1 ![0] bcast_S100000_S100000x1_0 (degree (m ((c : Thread nD τ).loc main_arg1))))
    (m ((c : Thread nD τ).loc main_arg0)) (m ((c : Thread nD τ).loc main_arg2)) (m ((c : Thread nD τ).loc main_arg3)) (m ((c : Thread nD τ).loc main_arg4))

theorem run : θ_run defs (onTc (τ := τ) (main (F := Ideal))) ⟨m, fun _ => 0, ρ⟩ fun r => ∀ c : Dev nD,
      r.2.mem ((c : Thread nD τ).loc main_v36_1) = scores (unit (headHidden m c)) (colUnit10 (m ((c : Thread nD τ).loc main_arg5)))
      ∧ r.2.mem ((c : Thread nD τ).loc main_v36_2) = scores (unit (headHidden m c)) (colUnit20 (m ((c : Thread nD τ).loc main_arg6)))
      ∧ r.2.mem ((c : Thread nD τ).loc main_v36_0) = headHidden m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    have A := arrays_after m c _ _ _ _ _ _ _ (m ((c : Thread nD τ).loc main_arg3)) (found_nbrSum m c) (found_degree m c)
      (V_main_arg0 m c) (V_main_arg2 m c) (found_bias m c) (V_main_arg4 m c) (found_colUnit10 m c) (found_colUnit20 m c)
    ⟨(h c).2.1.trans A.2.1, (h c).2.2.1.trans A.2.2, (h c).1.trans A.1, (h c).2.2.2⟩)
    (Value.run_blocks m ρ)

end Cert.Sage

end
-- ==== Proof.RefForm.lean ====
/-
  The reference's operations, over whole arrays at the extended reals, compose to the head's functions.
  Two steps are not pointwise and are read at an index: a vector of per-row values made a column (a broadcast along
  axis 0 reads entry r in row r, so clamping before or after it is the same), and the sum over the columns of
  a row kept as a column (the host's sum from 0 over axis 1 is the sum of the row). The rest — quotients, products,
  maxima, square roots, the matrix products into zero — are the same operations on both sides.
-/
import proofs.«122241_j1176821039648_2_alg».proof.Proof.Gen.ReferenceIdeal
import proofs.«122241_j1176821039648_2_alg».proof.Proof.Head

noncomputable section

namespace Cert.Sage.Ref

open Idealize.ShloMosaic Idealize.ShloMosaic.ValueIdx Cert.Tile Cert.Sage Cert.ReferenceIdeal
open Cert.ReferenceIdeal.Facts₀ Cert.ReferenceIdeal.Facts

/-- A vector of 100000 entries made a column: row a holds entry a. -/
theorem vecCol_apply (d : S100000.Idx → EReal) (a : Fin 100000) (q : Fin 1) :
    broadcastInDim S100000x1 ![0] bcast_S100000_S100000x1_0 d (ix2 a q) = d (ix1 a) :=
  broadcastInDim_apply _ bcast_S100000_S100000x1_0 d (ix2 a q) (ix1 a) fun x => match x with
    | ⟨0, _⟩ => by show a.val = if (100000 : Nat) = 1 then 0 else a.val; rw [if_neg (by decide)]

/-- Clamping the per-row degrees at 1 and then making them a column is the column of degrees clamped at 1. -/
theorem degCol (d : S100000.Idx → EReal) :
    broadcastInDim S100000x1 ![0] bcast_S100000_S100000x1_0
      (maximumf (F := Ideal) (φ := .f32) d
        (broadcastInDim S100000 ![] bcast_S_S100000 (constant (F := Ideal) S_ .f32 0x3F800000#32)))
    = degClamp (broadcastInDim S100000x1 ![0] bcast_S100000_S100000x1_0 d) := by
  funext j
  obtain ⟨a, q, rfl⟩ : ∃ (a : Fin 100000) (q : Fin 1), j = ix2 a q := ⟨j 0, j 1, eq_ix2 j⟩
  refine (vecCol_apply _ a q).trans ?_
  show max (d (ix1 a)) (broadcastInDim S100000 ![] bcast_S_S100000 (constant (F := Ideal) S_ .f32 0x3F800000#32) (ix1 a))
    = max (broadcastInDim S100000x1 ![0] bcast_S100000_S100000x1_0 d (ix2 a q)) (fill 1 0x3F800000#32 (ix2 a q))
  rw [vecCol_apply d a q]
  refine congrArg (max (d (ix1 a))) ?_
  exact (broadcastInDim_apply _ bcast_S_S100000 _ (ix1 a) ix0 fun x => x.elim0).trans
    (broadcastInDim_apply _ (bidScalar 100000 1) _ (ix2 a q) ix0 fun x => x.elim0).symm

/-- The host's sum from 0 over the columns, made a column, is the column of row sums. -/
theorem sumCol (Y : S100000x128.Idx → EReal) :
    broadcastInDim S100000x1 ![0] bcast_S100000_S100000x1_0
      (Host.reduceAdd (F := Ideal) (φ := .f32) Y (constant (F := Ideal) S_ .f32 0x00000000#32)
        reducesTo_S100000x128_S100000_d1 h_S_)
    = rowSum Y := by
  funext j
  obtain ⟨a, q, rfl⟩ : ∃ (a : Fin 100000) (q : Fin 1), j = ix2 a q := ⟨j 0, j 1, eq_ix2 j⟩
  refine (vecCol_apply _ a q).trans ?_
  simp only [Host.reduceAdd, Ideal.hostReduceAdd_def]
  rw [Ideal.hostReduceAdd_single reducesTo_S100000x128_S100000_d1 (by decide), rowSum_apply]
  show Ideal.ofBits .f32 0x00000000#32 + _ = _
  rw [Ideal.ofBits_zero_f32, zero_add]
  exact Finset.sum_congr rfl fun k _ => congrArg Y
    (funext fun x => Fin.ext (by match x with | ⟨0, _⟩ => rfl | ⟨1, _⟩ => rfl))

/-- The reference's spelling of the hidden array: the neighbour sums divided by the clamped per-row degrees
    (clamped as a vector, then made a column and repeated across the columns), times WL, plus the bias repeated
    down the rows, plus X · WR. -/
abbrev hiddenSpelt (AGG : S100000x128.Idx → EReal) (d : S100000.Idx → EReal) (X : S100000x128.Idx → EReal)
    (WL : S128x128.Idx → EReal) (b : S128.Idx → EReal) (WR : S128x128.Idx → EReal) : S100000x128.Idx → EReal :=
  addf (F := Ideal) (φ := .f32)
    (addf (F := Ideal) (φ := .f32)
      (Host.dotGeneral (F := Ideal) (φ₁ := .f32) (φ₂ := .f32) dot_S100000x128_S128x128_S100000x128_1_0_0_1_n_n none
        (Host.divf (F := Ideal) (φ := .f32) AGG
          (broadcastInDim S100000x128 ![0, 1] bcast_S100000x1_S100000x128_0_1
            (broadcastInDim S100000x1 ![0] bcast_S100000_S100000x1_0
              (maximumf (F := Ideal) (φ := .f32) d
                (broadcastInDim S100000 ![] bcast_S_S100000 (constant (F := Ideal) S_ .f32 0x3F800000#32))))))
        WL)
      (broadcastInDim S100000x128 ![0, 1] bcast_S1x128_S100000x128_0_1
        (broadcastInDim S1x128 ![1] bcast_S128_S1x128_1 b)))
    (Host.dotGeneral (F := Ideal) (φ₁ := .f32) (φ₂ := .f32) dot_S100000x128_S128x128_S100000x128_1_0_0_1_n_n none X WR)

theorem hidden_ref (AGG : S100000x128.Idx → EReal) (d : S100000.Idx → EReal) (X : S100000x128.Idx → EReal)
    (WL : S128x128.Idx → EReal) (b : S128.Idx → EReal) (WR : S128x128.Idx → EReal) :
    hiddenSpelt AGG d X WL b WR = hidden AGG (broadcastInDim S100000x1 ![0] bcast_S100000_S100000x1_0 d) X WL b WR := by
  unfold hiddenSpelt
  rw [degCol]
  rfl

/-- The reference's spelling of a row-normalised array. -/
abbrev unitSpelt (H : S100000x128.Idx → EReal) : S100000x128.Idx → EReal :=
  Host.divf (F := Ideal) (φ := .f32) H
    (broadcastInDim S100000x128 ![0, 1] bcast_S100000x1_S100000x128_0_1
      (maximumf (F := Ideal) (φ := .f32)
        (Host.sqrt (F := Ideal) (φ := .f32)
          (broadcastInDim S100000x1 ![0] bcast_S100000_S100000x1_0
            (Host.reduceAdd (F := Ideal) (φ := .f32) (mulf (F := Ideal) (φ := .f32) H H)
              (constant (F := Ideal) S_ .f32 0x00000000#32) reducesTo_S100000x128_S100000_d1 h_S_)))
        (broadcastInDim S100000x1 ![] bcast_S_S100000x1 (constant (F := Ideal) S_ .f32 0x2B8CBCCC#32))))

theorem unit_ref (H : S100000x128.Idx → EReal) : unitSpelt H = unit H := by
  unfold unitSpelt
  rw [sumCol]
  rfl

/-- The first result as the reference spells it: 10 · (unit hidden · W), ten columns. -/
theorem scores1_ref (AGG : S100000x128.Idx → EReal) (d : S100000.Idx → EReal) (X : S100000x128.Idx → EReal)
    (WL : S128x128.Idx → EReal) (b : S128.Idx → EReal) (WR : S128x128.Idx → EReal) (W : S128x10.Idx → EReal) :
    mulf (F := Ideal) (φ := .f32)
      (broadcastInDim S100000x10 ![] bcast_S_S100000x10 (constant (F := Ideal) S_ .f32 0x41200000#32))
      (Host.dotGeneral (F := Ideal) (φ₁ := .f32) (φ₂ := .f32) dot_S100000x128_S128x10_S100000x10_1_0_0_1_n_n none
        (unitSpelt (hiddenSpelt AGG d X WL b WR)) W)
    = scores (unit (hidden AGG (broadcastInDim S100000x1 ![0] bcast_S100000_S100000x1_0 d) X WL b WR)) W := by
  rw [hidden_ref, unit_ref]
  rfl

/-- The second result likewise, twenty columns. -/
theorem scores2_ref (AGG : S100000x128.Idx → EReal) (d : S100000.Idx → EReal) (X : S100000x128.Idx → EReal)
    (WL : S128x128.Idx → EReal) (b : S128.Idx → EReal) (WR : S128x128.Idx → EReal) (W : S128x20.Idx → EReal) :
    mulf (F := Ideal) (φ := .f32)
      (broadcastInDim S100000x20 ![] bcast_S_S100000x20 (constant (F := Ideal) S_ .f32 0x41200000#32))
      (Host.dotGeneral (F := Ideal) (φ₁ := .f32) (φ₂ := .f32) dot_S100000x128_S128x20_S100000x20_1_0_0_1_n_n none
        (unitSpelt (hiddenSpelt AGG d X WL b WR)) W)
    = scores (unit (hidden AGG (broadcastInDim S100000x1 ![0] bcast_S100000_S100000x1_0 d) X WL b WR)) W := by
  rw [hidden_ref, unit_ref]
  rfl

end Cert.Sage.Ref

end
-- ==== Proof.lean ====
/-
  A mean-aggregating graph layer with two normalised classifier heads, on 100000 nodes with 128 features and
  1600000 edges: the kernel program against its array-level reference, on the extended reals.

  Both programs first compute, with the same host operations, the per-node sums of the neighbours' features and the
  per-node in-degrees from the edge list, and the two classifier matrices with each column divided by its clamped
  norm. The reference then computes, on whole arrays,
      hidden = (sums / max(degree, 1)) · WL + bias + X · WR,
      scores_k = 10 · (hidden / max(‖hidden row‖, ε)) · W_k          (k = 1, 2),
  and the kernel computes the same three arrays ten blocks of 10000 rows at a time. Every step is local to a row
  — a product with a weight matrix reads one row of its left operand, the degree and the norm are per-row columns,
  the rest is pointwise — so the block of rows a grid point stores is that block of the whole-array function, and
  the ten blocks fill each result. No law of arithmetic beyond this is used, so the finiteness of the inputs is
  never needed: the two sides are the same function of the arguments on all extended reals.

  The kernel program and its idealization are the same text (no operation was rewritten), so the preservation
  claim is trivial; the three frames are the generated ones.
-/
import proofs.«122241_j1176821039648_2_alg».proof.Defs
import proofs.«122241_j1176821039648_2_alg».proof.Proof.Gen.Kernel
import proofs.«122241_j1176821039648_2_alg».proof.Proof.Gen.Kernel.Skeleton
import proofs.«122241_j1176821039648_2_alg».proof.Proof.Gen.Kernel.Launch
import proofs.«122241_j1176821039648_2_alg».proof.Proof.Gen.Kernel.Points
import proofs.«122241_j1176821039648_2_alg».proof.Proof.Gen.Kernel.Frame
import proofs.«122241_j1176821039648_2_alg».proof.Proof.Gen.KernelIdeal
import proofs.«122241_j1176821039648_2_alg».proof.Proof.Gen.KernelIdeal.Skeleton
import proofs.«122241_j1176821039648_2_alg».proof.Proof.Gen.KernelIdeal.Launch
import proofs.«122241_j1176821039648_2_alg».proof.Proof.Gen.KernelIdeal.Points
import proofs.«122241_j1176821039648_2_alg».proof.Proof.Gen.KernelIdeal.Frame
import proofs.«122241_j1176821039648_2_alg».proof.Proof.Gen.ReferenceIdeal
import proofs.«122241_j1176821039648_2_alg».proof.Proof.Gen.Pre_finite_inputs
import proofs.«122241_j1176821039648_2_alg».proof.Proof.Gen.KernelIdeal.Value
import proofs.«122241_j1176821039648_2_alg».proof.Proof.Gen.ReferenceIdeal.Run
import proofs.«122241_j1176821039648_2_alg».proof.Proof.KernelRun
import proofs.«122241_j1176821039648_2_alg».proof.Proof.RefForm
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- No operation was rewritten by the idealization. -/
theorem preserves : Cert.preserves_Kernel_KernelIdeal := trivial

/-- From arguments that agree, the kernel's three result arrays (the row blocks assembled) and the reference's (its
    operations composed) are the same functions of the arguments: the reference's spelling of the degree column and of
    the row norms is read at an index, everything else is the same operation on both sides. -/
theorem algebraic : Cert.algebraic_KernelIdeal_ReferenceIdeal := by
  intro m ρ m' ρ' _ hagree
  refine ⟨_, _, _, Cert.Sage.run m ρ, ?_⟩
  refine (θ_run Cert.ReferenceIdeal.defs _ _).mono (fun _ h c => ?_)
    (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · unfold Cert.ReferenceIdeal.Value.res_main_v47
    rw [a0, a1, a2, a3, a4, a5]
    exact Cert.Sage.Ref.scores1_ref _ _ _ _ _ _ _
  · unfold Cert.ReferenceIdeal.Value.res_main_v58
    rw [a0, a1, a2, a3, a4, a6]
    exact Cert.Sage.Ref.scores2_ref _ _ _ _ _ _ _
  · rw [a0, a1, a2, a3, a4]
    exact Cert.Sage.Ref.hidden_ref _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
